-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000x128 : S_.BroadcastsInDim S1600000x128 (![] : Fin 0 → Fin S1600000x128.rank)
  reducesTo_S1600000x128_S_d0_1 : S1600000x128.ReducesTo [0, 1] S_
  bcast_S_S1x16 : S_.BroadcastsInDim S1x16 (![] : Fin 0 → Fin S1x16.rank)
  reducesTo_S1x16_S_d0_1 : S1x16.ReducesTo [0, 1] S_
  bcast_S_S272x1024 : S_.BroadcastsInDim S272x1024 (![] : Fin 0 → Fin S272x1024.rank)
  reducesTo_S272x1024_S_d0_1 : S272x1024.ReducesTo [0, 1] S_
  bcast_S_S1024 : S_.BroadcastsInDim S1024 (![] : Fin 0 → Fin S1024.rank)
  reducesTo_S1024_S_d0 : S1024.ReducesTo [0] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S1024 .f32) (main_arg5 : FVec F S1024x128 .f32) (main_arg6 : FVec F S128 .f32) (main_v13 : IVec S_ 1) (main_v16 : IVec S272x1024 1) : IVec S_ 1 :=
  let main_c_5 : IVec S_ 1 := constantI S_ 1 1#1
  let main_v17 : IVec S_ 1 := (fun x v => Host.reduce IntOp.andi x v reducesTo_S272x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S1600000x128 .f32) (main_arg2 : FVec F S1x16 .f32) (main_arg3 : FVec F S272x1024 .f32) (main_arg4 : FVec F S1024 .f32) (main_arg5 : FVec F S1024x128 .f32) (main_arg6 : FVec F S128 .f32) (main_arg7 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000x128 .f32 := Host.absf main_arg1
  let main_cst_0 : FVec F S_ .f32 := constant S_ .f32 0x7F800000#32
  let main_v5 : FVec F S1600000x128 .f32 := broadcastInDim S1600000x128 ![] bcast_S_S1600000x128 main_cst_0
  let main_v6 : IVec S1600000x128 1 := cmpf .olt main_v4 main_v5
  let main_c_1 : IVec S_ 1 := constantI S_ 1 1#1
  let main_v7 : IVec S_ 1 := (fun x v => Host.reduce IntOp.andi x v reducesTo_S1600000x128_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S272x1024 .f32 := Host.absf main_arg3
  let main_cst_4 : FVec F S_ .f32 := constant S_ .f32 0x7F800000#32
  let main_v15 : FVec F S272x1024 .f32 := broadcastInDim S272x1024 ![] bcast_S_S272x1024 main_cst_4
  let main_v16 : IVec S272x1024 1 := cmpf .olt main_v14 main_v15
  fn_part1 (F := F) main_arg4 main_arg5 main_arg6 main_v13 main_v16
-- ==== Kernel.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S256x1024 : Shape := ⟨2, ![256, 1024]⟩
abbrev S16x1024 : Shape := ⟨2, ![16, 1024]⟩
abbrev S1x1024 : Shape := ⟨2, ![1, 1024]⟩
abbrev S1x128 : Shape := ⟨2, ![1, 128]⟩
abbrev S2000x128 : Shape := ⟨2, ![2000, 128]⟩
abbrev S2000x256 : Shape := ⟨2, ![2000, 256]⟩
abbrev S2000x1024 : Shape := ⟨2, ![2000, 1024]⟩

abbrev nBuf : Space → Nat
  | .hbm => 21
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S1x16, .f32⟩
  | .hbm, ⟨3, _⟩ => ⟨S272x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000x128, .f32⟩
  | .hbm, ⟨12, _⟩ => ⟨S1600000x1, .i32⟩
  | .hbm, ⟨13, _⟩ => ⟨S50000x128, .f32⟩
  | .hbm, ⟨14, _⟩ => ⟨S256x1024, .f32⟩
  | .hbm, ⟨15, _⟩ => ⟨S16x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x128, .f32⟩
  | .hbm, ⟨20, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S256x1024, .f32⟩
  | .local _ .vmem, ⟨5, _⟩ => ⟨S1x1024, .f32⟩
  | .local _ .vmem, ⟨6, _⟩ => ⟨S1024x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  slices_S272x1024_S256x1024_0_0 : S272x1024.Slices ![0, 0] S256x1024
  slices_S272x1024_S16x1024_256_0 : S272x1024.Slices ![256, 0] S16x1024
  shapeCasts_S1024_S1x1024 : S1024.ShapeCasts S1x1024
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  concatenates_S2000x128_S2000x128_S2000x256_d1 : Shape.Concatenates [S2000x128, S2000x128] S2000x256 1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S1024x128_S1024x128_0_0 : ∀ a, (![0, 0] : Fin 2 → Nat) a + S1024x128.size a ≤ S1024x128.size a
  h_S1024x128 : 0 < S1024x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000x128_S1600000x1_S1600000x128_1_0_0_1_wf : ScatterDims.WF S50000x128 S1600000x1 S1600000x128 [1] [0] [0] 1
  dot_S1x16_S16x1024_S1x1024_1_0_0_1_n_n_wf : DotDims.WF S1x16 S16x1024 S1x1024 [1] [0] [0] [1] [] []
  dot_S2000x256_S256x1024_S2000x1024_1_0_0_1_n_n_wf : DotDims.WF S2000x256 S256x1024 S2000x1024 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .f32 = 32 ∨ (Rect.block (s := S256x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S1x16_S16x1024_S1x1024_1_0_0_1_n_n : DotDims S1x16 S16x1024 S1x1024 where
  lhsContracting := [1]
  rhsContracting := [0]
  lhsNonContracting := [0]
  rhsNonContracting := [1]
  lhsBatch := []
  rhsBatch := []
  wf := dot_S1x16_S16x1024_S1x1024_1_0_0_1_n_n_wf
def dot_S2000x256_S256x1024_S2000x1024_1_0_0_1_n_n : DotDims S2000x256 S256x1024 S2000x1024 where
  lhsContracting := [1]
  rhsContracting := [0]
  lhsNonContracting := [0]
  rhsNonContracting := [1]
  lhsBatch := []
  rhsBatch := []
  wf := dot_S2000x256_S256x1024_S2000x1024_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_v4) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S1600000x128 : Shape := ⟨2, ![1600000, 128]⟩
abbrev S1x16 : Shape := ⟨2, ![1, 16]⟩
abbrev S272x1024 : Shape := ⟨2, ![272, 1024]⟩
abbrev S1024 : Shape := ⟨1, ![1024]⟩
abbrev S1024x128 : Shape := ⟨2, ![1024, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S50000x16 : Shape := ⟨2, ![50000, 16]⟩
abbrev S50000x272 : Shape := ⟨2, ![50000, 272]⟩
abbrev S50000x1024 : Shape := ⟨2, ![50000, 1024]⟩
abbrev S1x1024 : Shape := ⟨2, ![1, 1024]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1600000x128, .f32⟩
  | .hbm, ⟨2, _⟩ => ⟨S1x16, .f32⟩
  | .hbm, ⟨3, _⟩ => ⟨S272x1024, .f32⟩
  | .hbm, ⟨4, _⟩ => ⟨S1024, .f32⟩
  | .hbm, ⟨5, _⟩ => ⟨S1024x128, .f32⟩
  | .hbm, ⟨6, _⟩ => ⟨S128, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S50000x128, .f32⟩
  | .hbm, ⟨12, _⟩ => ⟨S1600000x1, .i32⟩
  | .hbm, ⟨13, _⟩ => ⟨S50000x128, .f32⟩
  | .hbm, ⟨14, _⟩ => ⟨S50000x16, .f32⟩
  | .hbm, ⟨15, _⟩ => ⟨S50000x272, .f32⟩
  | .hbm, ⟨16, _⟩ => ⟨S50000x1024, .f32⟩
  | .hbm, ⟨17, _⟩ => ⟨S1x1024, .f32⟩
  | .hbm, ⟨18, _⟩ => ⟨S50000x1024, .f32⟩
  | .hbm, ⟨19, _⟩ => ⟨S50000x1024, .f32⟩
  | .hbm, ⟨20, _⟩ => ⟨S_, .f32⟩
  | .hbm, ⟨21, _⟩ => ⟨S50000x1024, .f32⟩
  | .hbm, ⟨22, _⟩ => ⟨S50000x1024, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]

class Facts₀ : Prop where
  slices_S2x1600000_S1x1600000_1_0 : S2x1600000.Slices ![1, 0] S1x1600000
  shapeCasts_S1x1600000_S1600000 : S1x1600000.ShapeCasts S1600000
  bcast_S_S50000x128 : S_.BroadcastsInDim S50000x128 (![] : Fin 0 → Fin S50000x128.rank)
  bcast_S1600000_S1600000x1_0 : S1600000.BroadcastsInDim S1600000x1 (![0] : Fin 1 → Fin S1600000x1.rank)
  bcast_S1x16_S50000x16_0_1 : S1x16.BroadcastsInDim S50000x16 (![0, 1] : Fin 2 → Fin S50000x16.rank)
  concatenates_S50000x128_S50000x128_S50000x16_S50000x272_d1 : Shape.Concatenates [S50000x128, S50000x128, S50000x16] S50000x272 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S1600000x1_S1600000x128_1_0_0_1_wf : ScatterDims.WF S50000x128 S1600000x1 S1600000x128 [1] [0] [0] 1
  dot_S50000x272_S272x1024_S50000x1024_1_0_0_1_n_n_wf : DotDims.WF S50000x272 S272x1024 S50000x1024 [1] [0] [0] [1] [] []
  dot_S50000x1024_S1024x128_S50000x128_1_0_0_1_n_n_wf : DotDims.WF S50000x1024 S1024x128 S50000x128 [1] [0] [0] [1] [] []

variable [Facts₀]

def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x272_S272x1024_S50000x1024_1_0_0_1_n_n : DotDims S50000x272 S272x1024 S50000x1024 where
  lhsContracting := [1]
  rhsContracting := [0]
  lhsNonContracting := [0]
  rhsNonContracting := [1]
  lhsBatch := []
  rhsBatch := []
  wf := dot_S50000x272_S272x1024_S50000x1024_1_0_0_1_n_n_wf
def dot_S50000x1024_S1024x128_S50000x128_1_0_0_1_n_n : DotDims S50000x1024 S1024x128 S50000x128 where
  lhsContracting := [1]
  rhsContracting := [0]
  lhsNonContracting := [0]
  rhsNonContracting := [1]
  lhsBatch := []
  rhsBatch := []
  wf := dot_S50000x1024_S1024x128_S50000x128_1_0_0_1_n_n_wf

class Facts : Prop extends Facts₀ where

variable [Facts]
-- ==== Proof.Spec.lean ====
/-
  The node update of one message-passing block, as a function of a node's two input rows.

  A node has an aggregate row `a` (the sum of the edge features of the edges it receives) and a feature row `x`,
  128 entries each; the graph has one global row `U` of 16 entries. The node's hidden pre-activation at unit `k` is the
  product of the 272-entry row `(a | x | U)` with column `k` of `W1`, plus the bias `B1 k`; written here with the row's
  three parts summed apart, rows `0..127`, `128..255`, `256..271` of `W1`. The hidden value is its maximum with zero,
  and the node's output at `c` is the product of the hidden row with column `c` of `W2`, plus `B2 c`.

  `node` is that function. `nodeFused` is the same computed from a 256-row top part `Wt` of `W1` and a bias row `be`
  that already holds `B1` plus the global row's share: the two agree (`nodeFused_eq_node`) by regrouping a sum of four
  extended reals, which needs only that addition is commutative and associative, so it holds at the infinities too.
  `sum_256` and `sum_272` cut a sum over 256 or 272 positions at 128 and at 256.
-/
import Idealize.ShloMosaic.PureOps.Ideal
import Idealize.ShloMosaic.Lib.ValueIdx

noncomputable section

open scoped BigOperators

namespace Cert.Proof.NodeMlp

open Idealize.ShloMosaic Idealize.ShloMosaic.ValueIdx

/-- A matrix of extended reals. -/
abbrev Mat (a b : ℕ) : Type := (⟨2, ![a, b]⟩ : Shape).Idx → EReal
/-- A vector of extended reals. -/
abbrev Row (a : ℕ) : Type := (⟨1, ![a]⟩ : Shape).Idx → EReal

/-- The f32 zero word, as the extended real it denotes (never evaluated: both programs carry the same word). -/
abbrev zeroWord : EReal := Ideal.ofBits .f32 0x00000000#32

/-- The hidden pre-activation at unit `k`: the row `(a | x | U)` times column `k` of `W1`, plus `B1 k`. -/
def pre (a x : Fin 128 → EReal) (U : Mat 1 16) (W1 : Mat 272 1024) (B1 : Row 1024) (k : Fin 1024) : EReal :=
  ((∑ j : Fin 128, a j * W1 (ix2 (⟨j.val, by have := j.isLt; omega⟩ : Fin 272) k)
      + ∑ j : Fin 128, x j * W1 (ix2 (⟨128 + j.val, by have := j.isLt; omega⟩ : Fin 272) k))
    + ∑ j : Fin 16, U (ix2 (0 : Fin 1) j) * W1 (ix2 (⟨256 + j.val, by have := j.isLt; omega⟩ : Fin 272) k))
  + B1 (ix1 k)

/-- The node's output at `c`: the hidden row, clamped below at zero, times column `c` of `W2`, plus `B2 c`. -/
def node (a x : Fin 128 → EReal) (U : Mat 1 16) (W1 : Mat 272 1024) (B1 : Row 1024) (W2 : Mat 1024 128) (B2 : Row 128)
    (c : Fin 128) : EReal :=
  (∑ k : Fin 1024, max (pre a x U W1 B1 k) zeroWord * W2 (ix2 k c)) + B2 (ix1 c)

/-- The whole result: node `r`'s output row from row `r` of the aggregate `A` and of the features `X`. -/
def G (A X : Mat 50000 128) (U : Mat 1 16) (W1 : Mat 272 1024) (B1 : Row 1024) (W2 : Mat 1024 128) (B2 : Row 128) :
    Mat 50000 128 :=
  fun i => node (fun j => A (ix2 (i 0) j)) (fun j => X (ix2 (i 0) j)) U W1 B1 W2 B2 (i 1)

/-- `G` at node `r`, output `c`, is `node` of row `r` of the two arrays. -/
theorem G_at (A X : Mat 50000 128) (U : Mat 1 16) (W1 : Mat 272 1024) (B1 : Row 1024) (W2 : Mat 1024 128) (B2 : Row 128)
    (r : Fin 50000) (c : Fin 128) :
    G A X U W1 B1 W2 B2 (ix2 r c) = node (fun j => A (ix2 r j)) (fun j => X (ix2 r j)) U W1 B1 W2 B2 c := rfl

/-- The same output from a fused first layer: `Wt` the 256 rows of the weight that meet `(a | x)`, `be` a bias row
    that holds the global row's share already, `b2` the second bias as a one-row matrix. -/
def nodeFused (a x : Fin 128 → EReal) (Wt : Mat 256 1024) (be : Mat 1 1024) (W2 : Mat 1024 128) (b2 : Mat 1 128)
    (c : Fin 128) : EReal :=
  (∑ k : Fin 1024,
      max ((∑ j : Fin 128, a j * Wt (ix2 (⟨j.val, by have := j.isLt; omega⟩ : Fin 256) k)
          + ∑ j : Fin 128, x j * Wt (ix2 (⟨128 + j.val, by have := j.isLt; omega⟩ : Fin 256) k))
        + be (ix2 (0 : Fin 1) k)) zeroWord * W2 (ix2 k c))
    + b2 (ix2 (0 : Fin 1) c)

/-- THE LAW. When `Wt` is the top 256 rows of `W1`, `be k = B1 k + ∑ⱼ U j · W1 (256 + j, k)` and `b2` is `B2` as a
    row, the fused form is `node`: `(s + t) + (b + u) = ((s + t) + u) + b` in a commutative additive monoid. -/
theorem nodeFused_eq_node (a x : Fin 128 → EReal) (U : Mat 1 16) (W1 : Mat 272 1024) (B1 : Row 1024) (W2 : Mat 1024 128)
    (B2 : Row 128) (Wt : Mat 256 1024) (be : Mat 1 1024) (b2 : Mat 1 128) (c : Fin 128)
    (hWa : ∀ (j : Fin 128) (k : Fin 1024), Wt (ix2 (⟨j.val, by have := j.isLt; omega⟩ : Fin 256) k)
      = W1 (ix2 (⟨j.val, by have := j.isLt; omega⟩ : Fin 272) k))
    (hWx : ∀ (j : Fin 128) (k : Fin 1024), Wt (ix2 (⟨128 + j.val, by have := j.isLt; omega⟩ : Fin 256) k)
      = W1 (ix2 (⟨128 + j.val, by have := j.isLt; omega⟩ : Fin 272) k))
    (hbe : ∀ k : Fin 1024, be (ix2 (0 : Fin 1) k)
      = B1 (ix1 k) + ∑ j : Fin 16, U (ix2 (0 : Fin 1) j) * W1 (ix2 (⟨256 + j.val, by have := j.isLt; omega⟩ : Fin 272) k))
    (hb2 : ∀ c : Fin 128, b2 (ix2 (0 : Fin 1) c) = B2 (ix1 c)) :
    nodeFused a x Wt be W2 b2 c = node a x U W1 B1 W2 B2 c := by
  unfold nodeFused node pre
  rw [hb2 c]
  refine congrArg (· + B2 (ix1 c)) (Finset.sum_congr rfl fun k _ => ?_)
  rw [hbe k, add_comm (B1 (ix1 k)), ← add_assoc]
  simp only [hWa, hWx]

/-- A sum over 256 positions, cut at 128. -/
theorem sum_256 {M : Type*} [AddCommMonoid M] (f : Fin 256 → M) :
    ∑ q, f q = ∑ j : Fin 128, f ⟨j.val, by have := j.isLt; omega⟩ + ∑ j : Fin 128, f ⟨128 + j.val, by have := j.isLt; omega⟩ :=
  Fin.sum_univ_add (a := 128) (b := 128) f

/-- A sum over 272 positions, cut at 128 and at 256. -/
theorem sum_272 {M : Type*} [AddCommMonoid M] (f : Fin 272 → M) :
    ∑ q, f q = (∑ j : Fin 128, f ⟨j.val, by have := j.isLt; omega⟩ + ∑ j : Fin 128, f ⟨128 + j.val, by have := j.isLt; omega⟩)
      + ∑ j : Fin 16, f ⟨256 + j.val, by have := j.isLt; omega⟩ := by
  rw [Fin.sum_univ_add (a := 256) (b := 16) f, sum_256 fun q => f (Fin.castAdd 16 q)]
  rfl

end Cert.Proof.NodeMlp

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.LibConcatAt.lean ====
/-
  Matrices with the same number of rows laid side by side, read at an index known by its coordinates' values.

  Two pieces `x₁ : [n, a]`, `x₂ : [n, b]` joined along the columns into `[n, c]`: at an index whose row is `r` and
  whose column is `k < a` the joined array is `x₁ (r, k)`; at column `a + k` with `k < b` it is `x₂ (r, k)`.
  Three pieces `[n, a0]`, `[n, a1]`, `[n, a2]`: piece `p` starts at the sum of the extents before it, so columns
  `k`, `a0 + k`, `a0 + a1 + k` read pieces 0, 1, 2 at `(r, k)`.
  The index is ANY index of the joined shape with its two coordinates given as equations between naturals: the form in
  which a contraction's operand index arrives.
-/
import Idealize.ShloMosaic.Lib.ValueIdx
import Idealize.ShloMosaic.Lib.Pipeline.Value

noncomputable section

namespace Cert.Proof.ConcatAt

open Idealize.ShloMosaic Idealize.ShloMosaic.ValueIdx

variable {α : Type}

/-- Two pieces, a column of the left one. -/
theorem pair_left {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin a) (hr : (j 0).val = r.val) (hk : (j 1).val = k.val) :
    concatenate ⟨2, ![n, c]⟩ (1 : Fin 2) [⟨⟨2, ![n, a]⟩, x₁⟩, ⟨⟨2, ![n, b]⟩, x₂⟩] h j = x₁ (ix2 r k) :=
  concatenate_pair_apply_left (1 : Fin 2) x₁ x₂ h j rfl (ix2 r k) (fun bx => by
    match bx with
    | ⟨0, _⟩ => exact hr.symm
    | ⟨1, _⟩ => exact hk.symm)

/-- Two pieces, a column of the right one. -/
theorem pair_right {n a b c : ℕ} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (j : (⟨2, ![n, c]⟩ : Shape).Idx) (r : Fin n) (k : Fin b) (hr : (j 0).val = r.val) (hk : (j 1).val = a + k.val) :
    concatenate ⟨2, ![n, c]⟩ (1 : Fin 2) [⟨⟨2, ![n, a]⟩, x₁⟩, ⟨⟨2, ![n, b]⟩, x₂⟩] h j = x₂ (ix2 r k) :=
  concatenate_pair_apply_right (1 : Fin 2) x₁ x₂ h j rfl rfl (ix2 r k) (fun bx hb => by
    match bx with
    | ⟨0, _⟩ => exact hr.symm
    | ⟨1, _⟩ => exact absurd rfl hb)
    (by show k.val + a = (j 1).val; omega)

/-- Three pieces, a column of piece 0. -/
theorem three_0 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a0) (hr : (j 0).val = r.val) (hk : (j 1).val = k.val) :
    concatenate ⟨2, ![n, c]⟩ (1 : Fin 2) [⟨⟨2, ![n, a0]⟩, x0⟩, ⟨⟨2, ![n, a1]⟩, x1⟩, ⟨⟨2, ![n, a2]⟩, x2⟩] h j = x0 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    0 (by simp) ⟨2, ![n, a0]⟩ x0 rfl rfl 0 (by simp) (ix2 r k) (fun bx hb => by
      match bx with
      | ⟨0, _⟩ => exact hr.symm
      | ⟨1, _⟩ => exact absurd rfl hb) (by show 0 + k.val = (j 1).val; omega)

/-- Three pieces, a column of piece 1. -/
theorem three_1 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a1) (hr : (j 0).val = r.val) (hk : (j 1).val = a0 + k.val) :
    concatenate ⟨2, ![n, c]⟩ (1 : Fin 2) [⟨⟨2, ![n, a0]⟩, x0⟩, ⟨⟨2, ![n, a1]⟩, x1⟩, ⟨⟨2, ![n, a2]⟩, x2⟩] h j = x1 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    1 (by simp) ⟨2, ![n, a1]⟩ x1 rfl rfl a0 (by simp) (ix2 r k) (fun bx hb => by
      match bx with
      | ⟨0, _⟩ => exact hr.symm
      | ⟨1, _⟩ => exact absurd rfl hb) (by show a0 + k.val = (j 1).val; omega)

/-- Three pieces, a column of piece 2. -/
theorem three_2 {n a0 a1 a2 c : ℕ} (x0 : (⟨2, ![n, a0]⟩ : Shape).Idx → α) (x1 : (⟨2, ![n, a1]⟩ : Shape).Idx → α)
    (x2 : (⟨2, ![n, a2]⟩ : Shape).Idx → α)
    (h : Shape.Concatenates [(⟨2, ![n, a0]⟩ : Shape), (⟨2, ![n, a1]⟩ : Shape), (⟨2, ![n, a2]⟩ : Shape)] ⟨2, ![n, c]⟩ (1 : Fin 2))
    (j : (⟨2, ![n, c]⟩ : Shape).Idx) (r : Fin n) (k : Fin a2) (hr : (j 0).val = r.val) (hk : (j 1).val = a0 + a1 + k.val) :
    concatenate ⟨2, ![n, c]⟩ (1 : Fin 2) [⟨⟨2, ![n, a0]⟩, x0⟩, ⟨⟨2, ![n, a1]⟩, x1⟩, ⟨⟨2, ![n, a2]⟩, x2⟩] h j = x2 (ix2 r k) :=
  concatenate_apply_piece (t := ⟨2, ![n, c]⟩) (1 : Fin 2) [⟨⟨2, ![n, a0]⟩, x0⟩, ⟨⟨2, ![n, a1]⟩, x1⟩, ⟨⟨2, ![n, a2]⟩, x2⟩] h j
    2 (by simp) ⟨2, ![n, a2]⟩ x2 rfl rfl (a0 + a1) (by simp) (ix2 r k) (fun bx hb => by
      match bx with
      | ⟨0, _⟩ => exact hr.symm
      | ⟨1, _⟩ => exact absurd rfl hb) (by show a0 + a1 + k.val = (j 1).val; omega)

end Cert.Proof.ConcatAt

end
-- ==== Proof.KernelPayload.lean ====
/-
  What the kernel body stores, read at one entry.

  The body loads a block of 2000 aggregate rows and the same 2000 feature rows, the resident 256 × 1024 top part of the
  first weight, a 1 × 1024 bias row, the 1024 × 128 second weight and a 1 × 128 bias row. It lays the two row blocks
  side by side into 2000 × 256, multiplies by the top weight, adds the bias row to every row, clamps below at zero,
  multiplies by the second weight and adds the second bias row. At the extended reals the narrowings to a shorter float
  format are the identity and a product into a zero accumulator is the plain sum of products, so entry `(p, q)` of the
  stored block is `nodeFused` of row `p` of the two row blocks: the 256-term sum cut at 128 reads the left and the right
  piece of the joined block.
-/
import proofs.«156785_j34789235098352_2_alg».proof.Proof.Gen.KernelIdeal.Skeleton
import proofs.«156785_j34789235098352_2_alg».proof.Proof.Spec
import proofs.«156785_j34789235098352_2_alg».proof.Proof.LibPlainDot
import proofs.«156785_j34789235098352_2_alg».proof.Proof.LibConcatAt
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx
open Cert.Proof.NodeMlp Cert.Proof

/-- A plain product into the zero accumulator at `(p, q)`: the sum over `k` of `X (p, k) · W (k, q)`. -/
theorem matmul_at {M K N : ℕ} {φ₁ φ₂ : FTy} (prec : Option ContractPrecision) (X : FVec Ideal ⟨2, ![M, K]⟩ φ₁)
    (W : FVec Ideal ⟨2, ![K, N]⟩ φ₂) (p : Fin M) (q : Fin N) :
    matmul (DotDims.plain M K N) prec X W (constant ⟨2, ![M, N]⟩ .f32 0x00000000#32) (ix2 p q)
      = ∑ k : Fin K, X (ix2 p k) * W (ix2 k q) :=
  PlainDot.matmul_plain_zero prec X W (ix2 p q)

/-- The joined block at a column of its left half is the left piece there. -/
theorem cat_left (a b : FVec Ideal S2000x128 .bf16) (h : Shape.Concatenates [S2000x128, S2000x128] S2000x256 (1 : Fin 2))
    (p : Fin 2000) (j : Fin 128) :
    concatenate S2000x256 1 [⟨S2000x128, a⟩, ⟨S2000x128, b⟩] h (ix2 p (⟨j.val, by have := j.isLt; omega⟩ : Fin 256)) = a (ix2 p j) :=
  ConcatAt.pair_left a b h _ p j rfl rfl

/-- The joined block at a column of its right half is the right piece there. -/
theorem cat_right (a b : FVec Ideal S2000x128 .bf16) (h : Shape.Concatenates [S2000x128, S2000x128] S2000x256 (1 : Fin 2))
    (p : Fin 2000) (j : Fin 128) :
    concatenate S2000x256 1 [⟨S2000x128, a⟩, ⟨S2000x128, b⟩] h (ix2 p (⟨128 + j.val, by have := j.isLt; omega⟩ : Fin 256)) = b (ix2 p j) :=
  ConcatAt.pair_right a b h _ p j rfl rfl

/-- The two printed products contract the second axis of the left operand with the first of the right. -/
theorem dims1 : dot_S2000x256_S256x1024_S2000x1024_1_0_0_1_n_n = DotDims.plain 2000 256 1024 := rfl
theorem dims2 : dot_S2000x1024_S1024x128_S2000x128_1_0_0_1_n_n = DotDims.plain 2000 1024 128 := rfl

/-- ENTRY `(p, q)` OF THE STORED BLOCK is the fused node update of row `p` of the two loaded row blocks. -/
theorem pay_at (v0 v3 : Vec Ideal S2000x128 .f32) (v6 : Vec Ideal S256x1024 .f32) (v10 : Vec Ideal S1x1024 .f32)
    (v17 : Vec Ideal S1024x128 .f32) (v20 : Vec Ideal S1x128 .f32) (p : Fin 2000) (q : Fin 128) :
    k0_pay1 (F := Ideal) v0 v3 v6 v10 v17 v20 (ix2 p q)
      = nodeFused (fun j => v0 (ix2 p j)) (fun j => v3 (ix2 p j)) v6 v10 v17 v20 q := by
  unfold k0_pay1
  simp only [shapeCast_self]
  rw [dims1, dims2, addf_apply, matmul_at, broadcastTo_1b_ab_apply]
  simp only [truncf_apply, maximumf_apply, addf_apply, broadcast_apply, matmul_at, broadcastTo_1b_ab_apply, sum_256,
    cat_left, cat_right, shapeCast_self]
  rfl

end Cert.KernelIdeal.Payload

end
-- ==== Proof.KernelHost.lean ====
/-
  What the host operations leave for the kernel's windows.

  Before the kernel is launched the host program cuts the first weight `W1` (272 × 1024) into its top 256 rows and its
  last 16 rows, multiplies the global row `U` (1 × 16) by the last 16 rows, adds that to the first bias `B1` read as a
  1 × 1024 row, and reads the second bias `B2` as a 1 × 128 row. Read at an entry:
    the top part at `(j, k)` is `W1 (j, k)`;
    the fused bias row at `(0, k)` is `B1 k + ∑ⱼ U (0, j) · W1 (256 + j, k)`;
    the second bias row at `(0, c)` is `B2 c`.
-/
import proofs.«156785_j34789235098352_2_alg».proof.Proof.Gen.KernelIdeal.Frame
import proofs.«156785_j34789235098352_2_alg».proof.Proof.LibPlainDot
import Idealize.ShloMosaic.Lib.StableHlo.Run
import Idealize.ShloMosaic.Lib.ValueLayout
import Idealize.ShloMosaic.Lib.Pipeline.Value
import Idealize.ShloMosaic.PureOps.Ideal.Laws

noncomputable section

open scoped BigOperators

namespace Cert.KernelIdeal.HostSide

open Cert.KernelIdeal Cert.KernelIdeal.Gen Idealize.ShloMosaic Idealize.ShloMosaic.TcCoe Idealize.SL.Sem
open Idealize.ShloMosaic.ValueIdx Cert.Proof

variable (m : (ℓ : Loc nD τ sig) → Buf (Elt Ideal) ℓ)

/-! ## The arguments as arrays of extended reals -/

/-- The node features. -/
abbrev argX (c : Dev nD) : S50000x128.Idx → EReal := m ((c : Thread nD τ).loc main_arg0)
/-- The global row. -/
abbrev argU (c : Dev nD) : S1x16.Idx → EReal := m ((c : Thread nD τ).loc main_arg2)
/-- The first weight. -/
abbrev argW1 (c : Dev nD) : S272x1024.Idx → EReal := m ((c : Thread nD τ).loc main_arg3)
/-- The first bias. -/
abbrev argB1 (c : Dev nD) : S1024.Idx → EReal := m ((c : Thread nD τ).loc main_arg4)
/-- The second weight. -/
abbrev argW2 (c : Dev nD) : S1024x128.Idx → EReal := m ((c : Thread nD τ).loc main_arg5)
/-- The second bias. -/
abbrev argB2 (c : Dev nD) : S128.Idx → EReal := m ((c : Thread nD τ).loc main_arg6)

/-! ## The three arrays as terms of the arguments -/

/-- The top part: rows 0..255 of the first weight. -/
theorem V_top (c : Dev nD) :
    (V m c main_v5 : S256x1024.Idx → EReal)
      = extractStridedSlice S256x1024 ![0, 0] (argW1 m c) slices_S272x1024_S256x1024_0_0 := by
  dsimp only [Gen.V, Gen.hostOps0]
  after_results <;> rfl

/-- The fused bias row: the first bias as a row, plus the global row times rows 256..271 of the first weight. -/
theorem V_bias (c : Dev nD) :
    @Eq (S1x1024.Idx → EReal) (V m c main_v9)
      (addf (F := Ideal) (shapeCast S1x1024 (argB1 m c) shapeCasts_S1024_S1x1024)
          (Host.dotGeneral (F := Ideal) (φ₁ := .f32) (φ₂ := .f32) dot_S1x16_S16x1024_S1x1024_1_0_0_1_n_n none (argU m c)
            (extractStridedSlice S16x1024 ![256, 0] (argW1 m c) slices_S272x1024_S16x1024_256_0))) := by
  dsimp only [Gen.V, Gen.hostOps0]
  after_results <;> rfl

/-- The second bias as a row. -/
theorem V_bias2 (c : Dev nD) :
    (V m c main_v10 : S1x128.Idx → EReal) = shapeCast S1x128 (argB2 m c) shapeCasts_S128_S1x128 := by
  dsimp only [Gen.V, Gen.hostOps0]
  after_results <;> rfl

/-! ## Read at an entry -/

/-- A plain `dot_general` at `(p, q)`: the sum over `k` of `X (p, k) · W (k, q)`. -/
theorem dot_at {M K N : ℕ} {φ₁ φ₂ : FTy} (prec : Option ContractPrecision) (sched : HostSchedule)
    (X : FVec Ideal ⟨2, ![M, K]⟩ φ₁) (W : FVec Ideal ⟨2, ![K, N]⟩ φ₂) (p : Fin M) (q : Fin N) :
    FloatOps.dotGeneral (DotDims.plain M K N) prec sched X W (ix2 p q) = ∑ k : Fin K, X (ix2 p k) * W (ix2 k q) :=
  PlainDot.dotGeneral_plain prec sched X W (ix2 p q)

/-- The printed dimension numbers of the global row's product are the plain ones. -/
theorem dimsU : dot_S1x16_S16x1024_S1x1024_1_0_0_1_n_n = DotDims.plain 1 16 1024 := rfl

/-- Rows 0..255 of the first weight, at `(j, k)`. -/
theorem slice_top_at (W : S272x1024.Idx → EReal) (j : Fin 256) (k : Fin 1024) :
    extractStridedSlice S256x1024 ![0, 0] W slices_S272x1024_S256x1024_0_0 (ix2 j k)
      = W (ix2 (⟨j.val, by have := j.isLt; omega⟩ : Fin 272) k) :=
  extractStridedSlice_apply ![0, 0] W slices_S272x1024_S256x1024_0_0 (ix2 j k) (ix2 (⟨j.val, by have := j.isLt; omega⟩ : Fin 272) k)
    (fun a => match a with
      | ⟨0, _⟩ => by show j.val = 0 + j.val; omega
      | ⟨1, _⟩ => by show k.val = 0 + k.val; omega)

/-- Rows 256..271 of the first weight, at `(j, k)`. -/
theorem slice_last_at (W : S272x1024.Idx → EReal) (j : Fin 16) (k : Fin 1024) :
    extractStridedSlice S16x1024 ![256, 0] W slices_S272x1024_S16x1024_256_0 (ix2 j k)
      = W (ix2 (⟨256 + j.val, by have := j.isLt; omega⟩ : Fin 272) k) :=
  extractStridedSlice_apply ![256, 0] W slices_S272x1024_S16x1024_256_0 (ix2 j k) (ix2 (⟨256 + j.val, by have := j.isLt; omega⟩ : Fin 272) k)
    (fun a => match a with
      | ⟨0, _⟩ => by show 256 + j.val = 256 + j.val; omega
      | ⟨1, _⟩ => by show k.val = 0 + k.val; omega)

/-- THE TOP PART at `(j, k)` is the first weight there. -/
theorem top_at (c : Dev nD) (j : Fin 256) (k : Fin 1024) :
    V m c main_v5 (ix2 j k) = argW1 m c (ix2 (⟨j.val, by have := j.isLt; omega⟩ : Fin 272) k) :=
  (congrFun (V_top m c) (ix2 j k)).trans (slice_top_at _ j k)

/-- THE FUSED BIAS ROW at `(0, k)`: the first bias at `k` plus the global row's share of unit `k`. -/
theorem bias_at (c : Dev nD) (k : Fin 1024) :
    V m c main_v9 (ix2 (0 : Fin 1) k)
      = argB1 m c (ix1 k)
        + ∑ j : Fin 16, argU m c (ix2 (0 : Fin 1) j) * argW1 m c (ix2 (⟨256 + j.val, by have := j.isLt; omega⟩ : Fin 272) k) := by
  refine (congrFun (V_bias m c) (ix2 (0 : Fin 1) k)).trans ?_
  rw [addf_apply, shapeCast_a_1a_apply, dimsU]
  show _ + FloatOps.dotGeneral (DotDims.plain 1 16 1024) none .single _ _ (ix2 (0 : Fin 1) k) = _
  rw [dot_at]
  simp only [slice_last_at]

/-- THE SECOND BIAS ROW at `(0, c)` is the second bias at `c`. -/
theorem bias2_at (c : Dev nD) (q : Fin 128) :
    V m c main_v10 (ix2 (0 : Fin 1) q) = argB2 m c (ix1 q) := by
  refine (congrFun (V_bias2 m c) (ix2 (0 : Fin 1) q)).trans ?_
  rw [shapeCast_a_1a_apply]

end Cert.KernelIdeal.HostSide

end
-- ==== Proof.KernelWindows.lean ====
/-
  The kernel's seven windows over its grid of 25 points, read at an entry.

  Point `t` takes rows `2000 t .. 2000 t + 1999` of the aggregate and of the features and writes the same rows of the
  result; the top weight, the fused bias row, the second weight and the second bias row are whole resident blocks at
  every point. Each statement is about ANY array of the window's shape: entry `(p, j)` of the block a point reads is the
  array's entry at the shifted row, or at the same place for a resident block.
-/
import proofs.«156785_j34789235098352_2_alg».proof.Proof.Gen.KernelIdeal.Frame
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx

/-- The printed index maps over the 25 points: the two row blocks move with the output block, whose block row is the
    point's number; every other block index is zero. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) = t.val :=
  (by decide +kernel : ∀ t : Fin grid0.N, _)

variable (t : Fin cfg0.N)

/-- Window 0 (the aggregate's rows): block entry `(p, j)` is the array's entry at row `2000 · (block row) + p`. -/
theorem rows0 (A : S50000x128.Idx → EReal) (p : Fin 2000) (j : Fin 128) (r : Fin 50000)
    (hr : r.val = win0_6.index t (0 : Fin 2) * 2000 + 1 * p.val) :
    ((cfg0.win 0).blk t).view.read (Elt Ideal) A (ix2 p j) = A (ix2 r j) := by
  obtain ⟨e00, e01, -⟩ := idx_facts t
  show A (((cfg0.win 0).blk t).view.emb (ix2 p j)) = A (ix2 r j)
  refine congrArg A (funext fun a => Fin.ext ?_)
  match a with
  | ⟨0, _⟩ => show win0_0.index t (0 : Fin 2) * 2000 + 1 * p.val = r.val; omega
  | ⟨1, _⟩ => show win0_0.index t (1 : Fin 2) * 128 + 1 * j.val = j.val; omega

/-- Window 1 (the features' rows), likewise. -/
theorem rows1 (A : S50000x128.Idx → EReal) (p : Fin 2000) (j : Fin 128) (r : Fin 50000)
    (hr : r.val = win0_6.index t (0 : Fin 2) * 2000 + 1 * p.val) :
    ((cfg0.win 1).blk t).view.read (Elt Ideal) A (ix2 p j) = A (ix2 r j) := by
  obtain ⟨-, -, e10, e11, -⟩ := idx_facts t
  show A (((cfg0.win 1).blk t).view.emb (ix2 p j)) = A (ix2 r j)
  refine congrArg A (funext fun a => Fin.ext ?_)
  match a with
  | ⟨0, _⟩ => show win0_1.index t (0 : Fin 2) * 2000 + 1 * p.val = r.val; omega
  | ⟨1, _⟩ => show win0_1.index t (1 : Fin 2) * 128 + 1 * j.val = j.val; omega

/-- Window 2 (the top weight) is the whole array at every point. -/
theorem whole2 (A : S256x1024.Idx → EReal) (j : Fin 256) (k : Fin 1024) :
    ((cfg0.win 2).blk t).view.read (Elt Ideal) A (ix2 j k) = A (ix2 j k) := by
  obtain ⟨-, -, -, -, e20, e21, -⟩ := idx_facts t
  show A (((cfg0.win 2).blk t).view.emb (ix2 j k)) = A (ix2 j k)
  refine congrArg A (funext fun a => Fin.ext ?_)
  match a with
  | ⟨0, _⟩ => show win0_2.index t (0 : Fin 2) * 256 + 1 * j.val = j.val; omega
  | ⟨1, _⟩ => show win0_2.index t (1 : Fin 2) * 1024 + 1 * k.val = k.val; omega

/-- Window 3 (the fused bias row) is the whole row. -/
theorem whole3 (A : S1x1024.Idx → EReal) (u : Fin 1) (k : Fin 1024) :
    ((cfg0.win 3).blk t).view.read (Elt Ideal) A (ix2 u k) = A (ix2 u k) := by
  obtain ⟨-, -, -, -, -, -, e30, e31, -⟩ := idx_facts t
  show A (((cfg0.win 3).blk t).view.emb (ix2 u k)) = A (ix2 u k)
  refine congrArg A (funext fun a => Fin.ext ?_)
  match a with
  | ⟨0, _⟩ => show win0_3.index t (0 : Fin 2) * 1 + 1 * u.val = u.val; omega
  | ⟨1, _⟩ => show win0_3.index t (1 : Fin 2) * 1024 + 1 * k.val = k.val; omega

/-- Window 4 (the second weight) is the whole array. -/
theorem whole4 (A : S1024x128.Idx → EReal) (k : Fin 1024) (q : Fin 128) :
    ((cfg0.win 4).blk t).view.read (Elt Ideal) A (ix2 k q) = A (ix2 k q) := by
  obtain ⟨-, -, -, -, -, -, -, -, e40, e41, -⟩ := idx_facts t
  show A (((cfg0.win 4).blk t).view.emb (ix2 k q)) = A (ix2 k q)
  refine congrArg A (funext fun a => Fin.ext ?_)
  match a with
  | ⟨0, _⟩ => show win0_4.index t (0 : Fin 2) * 1024 + 1 * k.val = k.val; omega
  | ⟨1, _⟩ => show win0_4.index t (1 : Fin 2) * 128 + 1 * q.val = q.val; omega

/-- Window 5 (the second bias row) is the whole row. -/
theorem whole5 (A : S1x128.Idx → EReal) (u : Fin 1) (q : Fin 128) :
    ((cfg0.win 5).blk t).view.read (Elt Ideal) A (ix2 u q) = A (ix2 u q) := by
  obtain ⟨-, -, -, -, -, -, -, -, -, -, e50, e51, -⟩ := idx_facts t
  show A (((cfg0.win 5).blk t).view.emb (ix2 u q)) = A (ix2 u q)
  refine congrArg A (funext fun a => Fin.ext ?_)
  match a with
  | ⟨0, _⟩ => show win0_5.index t (0 : Fin 2) * 1 + 1 * u.val = u.val; omega
  | ⟨1, _⟩ => show win0_5.index t (1 : Fin 2) * 128 + 1 * q.val = q.val; omega

/-- Window 6 (the result's rows): the array index block entry `(p, q)` lands on is `(r, q)`,
    `r = 2000 · (block row) + p`. -/
theorem lands6 (p : Fin 2000) (q : Fin 128) :
    ∃ r : Fin 50000, r.val = win0_6.index t (0 : Fin 2) * 2000 + 1 * p.val
      ∧ ((cfg0.win 6).blk t).view.emb (ix2 p q) = ix2 r q := by
  obtain ⟨-, -, -, -, -, -, -, -, -, -, -, -, e61, -⟩ := idx_facts t
  refine ⟨(((cfg0.win 6).blk t).view.emb (ix2 p q)) 0, rfl, funext fun a => Fin.ext ?_⟩
  match a with
  | ⟨0, _⟩ => rfl
  | ⟨1, _⟩ => show win0_6.index t (1 : Fin 2) * 128 + 1 * q.val = q.val; omega

/-- A write-back of a whole staging block of window 6 writes the block as it is, and block `t` of an array read back
    at `(p, q)` is the array where that entry lands. -/
theorem cut_read6 (P : S2000x128.Idx → EReal) (R : S50000x128.Idx → EReal)
    (h : ∀ (p : Fin 2000) (q : Fin 128), P (ix2 p q) = R (((cfg0.win 6).blk t).view.emb (ix2 p q))) :
    (cfg0.win 6).cut (grid0.coords t) P = ((cfg0.win 6).blk t).view.read (Elt Ideal) R := by
  funext y
  obtain ⟨p, q, rfl⟩ : ∃ (p : Fin 2000) (q : Fin 128), y = ix2 p q := ⟨y 0, y 1, eq_ix2 y⟩
  exact h p q

end Cert.KernelIdeal.Windows

end
-- ==== Proof.KernelBlocks.lean ====
/-
  From the kernel's blocks to its result array.

  Point `t` of the 25 works on rows `2000 t .. 2000 t + 1999`. Entry `(p, q)` of what it writes back is the node update
  of node `r = 2000 t + p` at `q` (`entry`): the stored entry is the fused form of row `p` of the two row blocks, the
  fused form is `node` by the regrouping law once the resident blocks are read as the host left them, and row `p` of a
  row block is row `r` of its array. So point `t` writes back block `t` of the result (`flushed_eq`); every row lies in
  the block of the point `row / 2000` (`cover`), and the result array ends as the node update of every node
  (`final`, `run`).
-/
import proofs.«156785_j34789235098352_2_alg».proof.Proof.Gen.KernelIdeal.Value
import proofs.«156785_j34789235098352_2_alg».proof.Proof.KernelPayload
import proofs.«156785_j34789235098352_2_alg».proof.Proof.KernelHost
import proofs.«156785_j34789235098352_2_alg».proof.Proof.KernelWindows

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Proof.NodeMlp Cert.KernelIdeal.HostSide Cert.KernelIdeal.Windows

variable (m : (ℓ : Loc nD τ sig) → Buf (Elt Ideal) ℓ) (ρ : Dev nD → PrngReg)

theorem zeroOff : (![0, 0] : Fin 2 → Nat) = fun _ => 0 := funext fun a => by fin_cases a <;> rfl

/-- The aggregate as the region finds it: what the host operations before the launch wrote. -/
abbrev aggr (c : Dev nD) : S50000x128.Idx → EReal := V m c main_v4

/-- The result the run leaves: the node update of every node, from the aggregate and the arguments. -/
abbrev result (c : Dev nD) : S50000x128.Idx → EReal :=
  G (aggr m c) (argX m c) (argU m c) (argW1 m c) (argB1 m c) (argW2 m c) (argB2 m c)

/-! ## What a point writes back -/

/-- Row `p` of point `t`'s aggregate block is row `r` of the aggregate. -/
theorem agg_row (c : Dev nD) (t : Fin cfg0.N) (p : Fin 2000) (r : Fin 50000)
    (hr : r.val = win0_6.index t (0 : Fin 2) * 2000 + 1 * p.val) :
    (fun j : Fin 128 => iblk m c 0 t (ix2 p j)) = fun j => aggr m c (ix2 r j) :=
  funext fun j => rows0 t (aggr m c) p j r hr

/-- Row `p` of point `t`'s feature block is row `r` of the features. -/
theorem feat_row (c : Dev nD) (t : Fin cfg0.N) (p : Fin 2000) (r : Fin 50000)
    (hr : r.val = win0_6.index t (0 : Fin 2) * 2000 + 1 * p.val) :
    (fun j : Fin 128 => iblk m c 1 t (ix2 p j)) = fun j => argX m c (ix2 r j) :=
  funext fun j => (rows1 t (V m c main_arg0) p j r hr).trans (congrFun (V_main_arg0 m c) (ix2 r j))

/-- The resident second-weight block is the second weight. -/
theorem w2_blk (c : Dev nD) (t : Fin cfg0.N) : (iblk m c 4 t : S1024x128.Idx → EReal) = argW2 m c :=
  funext fun y => by
    obtain ⟨k, q, rfl⟩ : ∃ (k : Fin 1024) (q : Fin 128), y = ix2 k q := ⟨y 0, y 1, eq_ix2 y⟩
    exact (whole4 t (V m c main_arg5) k q).trans (congrFun (V_main_arg5 m c) (ix2 k q))

/-- ENTRY `(p, q)` OF WHAT POINT `t` STORES is the node update of node `r = 2000 · (block row) + p` at `q`. -/
theorem entry (c : Dev nD) (t : Fin cfg0.N) (p : Fin 2000) (q : Fin 128) (r : Fin 50000)
    (hr : r.val = win0_6.index t (0 : Fin 2) * 2000 + 1 * p.val) :
    k0_pay1 (F := Ideal) (iblk m c 0 t) (iblk m c 1 t) (iblk m c 2 t) (iblk m c 3 t) (iblk m c 4 t) (iblk m c 5 t) (ix2 p q)
      = result m c (ix2 r q) := by
  refine (Payload.pay_at (iblk m c 0 t) (iblk m c 1 t) (iblk m c 2 t) (iblk m c 3 t) (iblk m c 4 t) (iblk m c 5 t) p q).trans ?_
  refine (nodeFused_eq_node _ _ (argU m c) (argW1 m c) (argB1 m c) _ (argB2 m c) _ _ _ q ?_ ?_ ?_ ?_).trans ?_
  · exact fun j k => (whole2 t (V m c main_v5) _ k).trans (top_at m c _ k)
  · exact fun j k => (whole2 t (V m c main_v5) _ k).trans (top_at m c _ k)
  · exact fun k => (whole3 t (V m c main_v9) 0 k).trans (bias_at m c k)
  · exact fun q' => (whole5 t (V m c main_v10) 0 q').trans (bias2_at m c q')
  · rw [agg_row m c t p r hr, feat_row m c t p r hr, w2_blk m c t]
    exact (G_at (aggr m c) (argX m c) (argU m c) (argW1 m c) (argB1 m c) (argW2 m c) (argB2 m c) r q).symm

/-- WHAT POINT `t` WRITES BACK is block `t` of the result. -/
theorem flushed_eq (c : Dev nD) (t : Fin cfg0.N) :
    (dats m 0 c).flushed 6 t = ((cfg0.win 6).blk t).view.read (Elt Ideal) (result m c) := by
  rw [flushed6]
  unfold out0_6
  rw [View.canon_unit_zero zeroOff]
  simp only [View.ld_unit_zero (S := S2000x128) zeroOff, View.ld_unit_zero (S := S256x1024) zeroOff,
    View.ld_unit_zero (S := S1x1024) zeroOff, View.ld_unit_zero (S := S1024x128) zeroOff,
    View.ld_unit_zero (S := S1x128) zeroOff]
  refine cut_read6 t _ _ fun p q => ?_
  obtain ⟨r, hr, hidx⟩ := lands6 t p q
  rw [hidx]
  exact entry m c t p q r hr

/-! ## The blocks cover the result -/

/-- An index of the result is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v11).slice (win0_6.rect t)).set ↔ _
  rw [View.set_slice_whole, Rect.mem_set_unit]
  exact Iff.rfl

/-- Row `r` lies in the block of the point `r / 2000`. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  let t : Fin cfg0.N := ⟨(i 0).val / 2000, by rw [show cfg0.N = 25 from N_0]; omega⟩
  obtain ⟨-, -, -, -, -, -, -, -, -, -, -, -, e61, e60⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- THE RESULT ARRAY after the run is the node update of every node. -/
theorem final (c : Dev nD) : (dats m 0 c).arrAt 6 cfg0.N = result m c :=
  (dats m 0 c).arrAt_eq_of_cover 6 (result m c) (fun t _ => flushed_eq m c t) cover

/-- The kernel's run: the result holds the node updates, the arguments are unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.RefIsSpec.lean ====
/-
  The reference computes the node update.

  The reference joins, for every node, the aggregate row, the feature row and the global row into one row of 272
  entries, multiplies by `W1`, adds `B1`, clamps below at zero, multiplies by `W2` and adds `B2`. Read at the node
  `r` and the hidden unit `k`, the product with `W1` is a sum over the 272 positions of the joined row; cut at 128 and
  at 256 the three parts read the aggregate, the features and the global row (`hidden_at`). The last layer read at
  `(r, c)` is then `node` of row `r` (`result_eq`). The aggregate itself is left as the program writes it.
-/
import proofs.«156785_j34789235098352_2_alg».proof.Proof.Gen.ReferenceIdeal.Read
import proofs.«156785_j34789235098352_2_alg».proof.Proof.Spec
import proofs.«156785_j34789235098352_2_alg».proof.Proof.LibConcatAt

noncomputable section

open scoped BigOperators

namespace Cert.ReferenceIdeal.RefValue

open Cert.ReferenceIdeal Cert.ReferenceIdeal.Read Idealize.ShloMosaic Idealize.ShloMosaic.ValueIdx
open Cert.Proof.NodeMlp Cert.Proof

/-! ## The operand indices of the two products and of the bias rows, by coordinates -/

theorem lidx7 (r : Fin 50000) (k : Fin 1024) (q : Fin 272) : lidx_main_v7 (ix2 r k) q = ix2 r q :=
  funext fun a => Fin.ext (by match a with | ⟨0, _⟩ => rfl | ⟨1, _⟩ => rfl)
theorem ridx7 (r : Fin 50000) (k : Fin 1024) (q : Fin 272) : ridx_main_v7 (ix2 r k) q = ix2 q k :=
  funext fun a => Fin.ext (by match a with | ⟨0, _⟩ => rfl | ⟨1, _⟩ => rfl)
theorem idx9 (r : Fin 50000) (k : Fin 1024) : idx_main_v8 (idx_main_v9 (ix2 r k)) = ix1 k :=
  funext fun a => Fin.ext (by match a with | ⟨0, _⟩ => rfl)
theorem lidx12 (r : Fin 50000) (c : Fin 128) (k : Fin 1024) : lidx_main_v12 (ix2 r c) k = ix2 r k :=
  funext fun a => Fin.ext (by match a with | ⟨0, _⟩ => rfl | ⟨1, _⟩ => rfl)
theorem ridx12 (r : Fin 50000) (c : Fin 128) (k : Fin 1024) : ridx_main_v12 (ix2 r c) k = ix2 k c :=
  funext fun a => Fin.ext (by match a with | ⟨0, _⟩ => rfl | ⟨1, _⟩ => rfl)
theorem idx14 (r : Fin 50000) (c : Fin 128) : idx_main_v13 (idx_main_v14 (ix2 r c)) = ix1 c :=
  funext fun a => Fin.ext (by match a with | ⟨0, _⟩ => rfl)

/-! ## The joined row, part by part -/

variable (x0 : (⟨S50000x128, .f32⟩ : BufTy).Contents (Elt Ideal)) (x1 : (⟨S1600000x128, .f32⟩ : BufTy).Contents (Elt Ideal))
  (x2 : (⟨S1x16, .f32⟩ : BufTy).Contents (Elt Ideal)) (x3 : (⟨S272x1024, .f32⟩ : BufTy).Contents (Elt Ideal))
  (x4 : (⟨S1024, .f32⟩ : BufTy).Contents (Elt Ideal)) (x5 : (⟨S1024x128, .f32⟩ : BufTy).Contents (Elt Ideal))
  (x6 : (⟨S128, .f32⟩ : BufTy).Contents (Elt Ideal)) (x7 : (⟨S2x1600000, .i32⟩ : BufTy).Contents (Elt Ideal))

/-- Positions 0..127 of node `r`'s joined row hold its aggregate row. -/
theorem joined_agg (r : Fin 50000) (j : Fin 128) :
    val_main_v6 (F := Ideal) x0 x1 x2 x7 (ix2 r (⟨j.val, by have := j.isLt; omega⟩ : Fin 272))
      = val_main_v4 (F := Ideal) x1 x7 (ix2 r j) := by
  unfold val_main_v6
  exact ConcatAt.three_0 _ _ _ _ _ r j rfl rfl

/-- Positions 128..255 hold its feature row. -/
theorem joined_feat (r : Fin 50000) (j : Fin 128) :
    val_main_v6 (F := Ideal) x0 x1 x2 x7 (ix2 r (⟨128 + j.val, by have := j.isLt; omega⟩ : Fin 272)) = x0 (ix2 r j) := by
  unfold val_main_v6
  exact ConcatAt.three_1 _ _ _ _ _ r j rfl rfl

/-- Positions 256..271 hold the global row, the same for every node. -/
theorem joined_glob (r : Fin 50000) (j : Fin 16) :
    val_main_v6 (F := Ideal) x0 x1 x2 x7 (ix2 r (⟨256 + j.val, by have := j.isLt; omega⟩ : Fin 272)) = x2 (ix2 (0 : Fin 1) j) := by
  unfold val_main_v6
  refine (ConcatAt.three_2 _ _ _ _ _ r j rfl rfl).trans ?_
  rw [val_main_v5_apply]
  exact congrArg x2 (funext fun a => Fin.ext (by match a with | ⟨0, _⟩ => rfl | ⟨1, _⟩ => rfl))

/-! ## The hidden layer and the result -/

/-- The reference's hidden value of node `r` at unit `k` is the clamped pre-activation of `r`'s two rows. -/
theorem hidden_at (r : Fin 50000) (k : Fin 1024) :
    val_main_v11 (F := Ideal) x0 x1 x2 x3 x4 x7 (ix2 r k)
      = max (pre (fun j => val_main_v4 (F := Ideal) x1 x7 (ix2 r j)) (fun j => x0 (ix2 r j)) x2 x3 x4 k) zeroWord := by
  rw [val_main_v11_apply, val_main_v10_apply, val_main_v7_apply, val_main_v9_apply, val_main_v8_apply,
    val_main_call0_v0_apply, val_main_call0_cst_apply, idx9]
  simp only [lidx7, ridx7]
  rw [sum_272]
  simp only [joined_agg, joined_feat, joined_glob]
  rfl

/-- The reference's result is `G` of its aggregate and of the arguments. -/
theorem result_eq :
    val_main_v15 (F := Ideal) x0 x1 x2 x3 x4 x5 x6 x7 = G (val_main_v4 (F := Ideal) x1 x7) x0 x2 x3 x4 x5 x6 := by
  funext i
  obtain ⟨r, c, rfl⟩ : ∃ (r : Fin 50000) (c : Fin 128), i = ix2 r c := ⟨i 0, i 1, eq_ix2 i⟩
  rw [val_main_v15_apply, val_main_v12_apply, val_main_v14_apply, val_main_v13_apply, idx14]
  simp only [lidx12, ridx12, hidden_at]
  rfl

end Cert.ReferenceIdeal.RefValue

end
-- ==== Proof.lean ====
/-
  A node block of a message-passing network: each of 50000 nodes sums the 128 features of the edges it receives
  (1.6 million edges), and a two-layer perceptron with a clamp at zero maps the node's row
  `(aggregate | features | global row)`, 272 entries, through `W1` (272 × 1024) and `W2` (1024 × 128) with biases.

  The reference joins the three parts into one row per node and multiplies by `W1`. The kernel keeps the edge sum on
  the host, exactly as the reference writes it, and runs the perceptron over blocks of 2000 nodes: the aggregate and the
  features are laid side by side and multiplied by the top 256 rows of `W1`, and the global row, the same for every
  node, is multiplied by the last 16 rows of `W1` once, on the host, and added to the bias. Over the extended reals both
  are, for node `r` and output `c`,

      ∑ₖ max (∑ⱼ a r j · W1 (j, k) + ∑ⱼ x r j · W1 (128 + j, k) + ∑ⱼ U j · W1 (256 + j, k) + B1 k, 0) · W2 (k, c) + B2 c,

  the two differing only in how the four summands of the inner sum are grouped, and addition of extended reals is
  commutative and associative at the infinities too; the shorter float formats the kernel passes through are the
  identity there. The aggregate is the same term of the edge features and the edge index in both programs and is never
  opened.

  `Spec` states the function and the regrouping law; `RefIsSpec` reads the reference's operations as that function;
  `KernelPayload` reads the kernel body's one store at an entry, `KernelHost` the three arrays the host prepares,
  `KernelBlocks` carries the 25 blocks to the whole result; here the claims are put together.
-/
import proofs.«156785_j34789235098352_2_alg».proof.Defs
import proofs.«156785_j34789235098352_2_alg».proof.Proof.Gen.Kernel
import proofs.«156785_j34789235098352_2_alg».proof.Proof.Gen.Kernel.Skeleton
import proofs.«156785_j34789235098352_2_alg».proof.Proof.Gen.Kernel.Launch
import proofs.«156785_j34789235098352_2_alg».proof.Proof.Gen.Kernel.Points
import proofs.«156785_j34789235098352_2_alg».proof.Proof.Gen.Kernel.Frame
import proofs.«156785_j34789235098352_2_alg».proof.Proof.Gen.KernelIdeal
import proofs.«156785_j34789235098352_2_alg».proof.Proof.Gen.KernelIdeal.Skeleton
import proofs.«156785_j34789235098352_2_alg».proof.Proof.Gen.KernelIdeal.Launch
import proofs.«156785_j34789235098352_2_alg».proof.Proof.Gen.KernelIdeal.Points
import proofs.«156785_j34789235098352_2_alg».proof.Proof.Gen.KernelIdeal.Frame
import proofs.«156785_j34789235098352_2_alg».proof.Proof.Gen.ReferenceIdeal
import proofs.«156785_j34789235098352_2_alg».proof.Proof.Gen.KernelIdeal.Value
import proofs.«156785_j34789235098352_2_alg».proof.Proof.Gen.ReferenceIdeal.Run
import proofs.«156785_j34789235098352_2_alg».proof.Proof.Gen.ReferenceIdeal.Read
import proofs.«156785_j34789235098352_2_alg».proof.Proof.Gen.Pre_finite_inputs
import proofs.«156785_j34789235098352_2_alg».proof.Proof.KernelBlocks
import proofs.«156785_j34789235098352_2_alg».proof.Proof.RefIsSpec
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem
open Cert.Proof.NodeMlp

/-! ## The frames, and the idealization -/

theorem frame_kernel : Cert.frame_Kernel := fun m ρ _ => Cert.Kernel.Gen.frame m ρ

theorem frame_kernelIdeal : Cert.frame_KernelIdeal := fun m ρ _ => Cert.KernelIdeal.Gen.frame m ρ

/-- The reference launches no kernel: its run to the end, with the result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to preserve. -/
theorem preserves : Cert.preserves_Kernel_KernelIdeal := trivial

/-! ## The two programs' results agree -/

/-- The aggregate the kernel's region finds is the reference's aggregate of the same edge features and edge index:
    both programs take row 1 of the edge index, read it as a column, and add every edge's features into a zero array
    at that row — the same operations, term for term. -/
theorem aggregate_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v4 : Cert.KernelIdeal.S50000x128.Idx → EReal)
      = Cert.ReferenceIdeal.Read.val_main_v4 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg7)) := by
  dsimp only [Cert.KernelIdeal.Gen.V, Cert.KernelIdeal.Gen.hostOps0]
  after_results
  rfl

/-- From memories that agree on the arguments the kernel ends with the node update of every node (`KernelBlocks`) and
    so does the reference (`RefIsSpec`), of the same aggregate. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v15_eq, Cert.ReferenceIdeal.RefValue.result_eq, h0, h1, h2, h3, h4, h5, h6, h7,
    ← aggregate_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
